-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : IVec S800000 32) (main_arg1 : IVec S800000 32) (main_arg2 : FVec F S50000x128 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S50000x128 .f32 := Host.absf main_arg2
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S800000 : Shape := ⟨1, ![800000]⟩
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S1x64 : Shape := ⟨2, ![1, 64]⟩

abbrev nBuf : Space → Nat
  | .hbm => 71
  | .vmem => 38
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S50000, .i32⟩
  | .hbm, ⟨10, _⟩ => ⟨S850000, .i32⟩
  | .hbm, ⟨11, _⟩ => ⟨S850000, .i32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000, .f32⟩
  | .hbm, ⟨25, _⟩ => ⟨S50000x1, .f32⟩
  | .hbm, ⟨26, _⟩ => ⟨S50000x128, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000x128, .f32⟩
  | .hbm, ⟨36, _⟩ => ⟨S_, .f32⟩
  | .hbm, ⟨37, _⟩ => ⟨S50000x128, .f32⟩
  | .hbm, ⟨38, _⟩ => ⟨S850000x1, .i32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000x128, .f32⟩
  | .hbm, ⟨51, _⟩ => ⟨S_, .f32⟩
  | .hbm, ⟨52, _⟩ => ⟨S50000x128, .f32⟩
  | .hbm, ⟨53, _⟩ => ⟨S850000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x128, .f32⟩
  | .hbm, ⟨66, _⟩ => ⟨S_, .f32⟩
  | .hbm, ⟨67, _⟩ => ⟨S50000x128, .f32⟩
  | .hbm, ⟨68, _⟩ => ⟨S850000x1, .i32⟩
  | .hbm, ⟨69, _⟩ => ⟨S50000x128, .f32⟩
  | .hbm, ⟨70, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x1, .f32⟩
  | .local _ .vmem, ⟨21, _⟩ => ⟨S5000x1, .f32⟩
  | .local _ .vmem, ⟨22, _⟩ => ⟨S5000x1, .f32⟩
  | .local _ .vmem, ⟨23, _⟩ => ⟨S5000x1, .f32⟩
  | .local _ .vmem, ⟨24, _⟩ => ⟨S128x128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x1, .f32⟩
  | .local _ .vmem, ⟨33, _⟩ => ⟨S5000x1, .f32⟩
  | .local _ .vmem, ⟨34, _⟩ => ⟨S128x64, .f32⟩
  | .local _ .vmem, ⟨35, _⟩ => ⟨S64, .f32⟩
  | .local _ .vmem, ⟨36, _⟩ => ⟨S5000x64, .f32⟩
  | .local _ .vmem, ⟨37, _⟩ => ⟨S5000x64, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25_0 : Ref sig .tc := ⟨.hbm, 40, rfl⟩
abbrev main_v25_1 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36_0 : Ref sig .tc := ⟨.hbm, 55, rfl⟩
abbrev main_v36_1 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem4_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S850000x1_S850000_n_0_0_1_wf : ScatterDims.WF S50000 S850000x1 S850000 [] [0] [0] 1
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg2) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v25_1) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v36_1) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v46) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S800000 : Shape := ⟨1, ![800000]⟩
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x128 : Shape := ⟨2, ![850000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 98
  | .vmem => 0
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S50000, .i32⟩
  | .hbm, ⟨10, _⟩ => ⟨S850000, .i32⟩
  | .hbm, ⟨11, _⟩ => ⟨S850000, .i32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000, .f32⟩
  | .hbm, ⟨25, _⟩ => ⟨S50000x1, .f32⟩
  | .hbm, ⟨26, _⟩ => ⟨S50000x128, .f32⟩
  | .hbm, ⟨27, _⟩ => ⟨S50000x128, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000x128, .f32⟩
  | .hbm, ⟨37, _⟩ => ⟨S_, .f32⟩
  | .hbm, ⟨38, _⟩ => ⟨S50000x128, .f32⟩
  | .hbm, ⟨39, _⟩ => ⟨S850000x1, .i32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x128, .f32⟩
  | .hbm, ⟨85, _⟩ => ⟨S_, .f32⟩
  | .hbm, ⟨86, _⟩ => ⟨S50000x128, .f32⟩
  | .hbm, ⟨87, _⟩ => ⟨S850000x1, .i32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S50000x64, .f32⟩
  | .hbm, ⟨92, _⟩ => ⟨S1x64, .f32⟩
  | .hbm, ⟨93, _⟩ => ⟨S50000x64, .f32⟩
  | .hbm, ⟨94, _⟩ => ⟨S50000x64, .f32⟩
  | .hbm, ⟨95, _⟩ => ⟨S_, .f32⟩
  | .hbm, ⟨96, _⟩ => ⟨S50000x64, .f32⟩
  | .hbm, ⟨97, _⟩ => ⟨S50000x64, .f32⟩
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call0_cst : Ref sig .tc := ⟨.hbm, 47, rfl⟩
abbrev main_call0_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_4 : Ref sig .tc := ⟨.hbm, 52, rfl⟩
abbrev main_v35 : Ref sig .tc := ⟨.hbm, 53, rfl⟩
abbrev main_v36 : Ref sig .tc := ⟨.hbm, 54, rfl⟩
abbrev main_c_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_7 : Ref sig .tc := ⟨.hbm, 76, rfl⟩
abbrev main_v54 : Ref sig .tc := ⟨.hbm, 77, rfl⟩
abbrev main_v55 : Ref sig .tc := ⟨.hbm, 78, rfl⟩
abbrev main_c_8 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_9 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_call2_cst : Ref sig .tc := ⟨.hbm, 95, rfl⟩
abbrev main_call2_v0 : Ref sig .tc := ⟨.hbm, 96, rfl⟩
abbrev main_v70 : Ref sig .tc := ⟨.hbm, 97, rfl⟩

abbrev nD : Nat := 1
abbrev τ : Topo := Topo.v7x

variable {F : FTy → Type} [FloatOps F]

class Facts₀ : Prop where
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  scatter_S50000_S850000x1_S850000_n_0_0_1_wf : ScatterDims.WF S50000 S850000x1 S850000 [] [0] [0] 1
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its result named.

  The program is four kernel regions among stretches of host operations.  Its generated frame walks the
  buffer contents through the eight segments (W0 … W8) and ends with every unscoped buffer at W8; from that
  it keeps only the argument arrays.  Here the same walk is read at one more buffer, the result %47: every
  weakly fair execution terminates, the result holds W8's contents of it — the array region 3's write-backs
  leave — and the arguments are unchanged.
-/
import proofs.«162499_j60988535603566_1_alg».proof.Proof.FrameKernelIdeal

set_option maxRecDepth 16384

noncomputable section

namespace Cert.KernelIdeal.Named

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents of it and the argument arrays as launched. -/
theorem run : θ_run defs (onTc (τ := τ) (main (F := F))) ⟨m, fun _ => 0, ρ⟩ (fun r => ∀ c : Dev nD,
      r.2.mem ((c.tc : Thread nD τ).loc main_v47) = W8 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v47 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.Named

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«162499_j60988535603566_1_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.LibHostColumns.lean ====
/-
  A per-row value spread over the lanes by the host.  The host turns a vector [a] into the column [a, 1] by a
  broadcast onto axis 0, and spreads the column over b lanes by a broadcast onto axes 0 and 1.  Read at an
  index, the column at (i, 0) is the vector at i, and the spread array at (p, c) is the column at (p, 0): every
  lane of row p sees row p's value.  General facts, for any extents and entry type.
-/
import Idealize.ShloMosaic.Lib.Pipeline.Value
import Idealize.ShloMosaic.Lib.ValueIdx

noncomputable section

namespace Cert.Lib.HostColumns

open Idealize.ShloMosaic Idealize.ShloMosaic.ValueIdx

variable {α : Type}

/-- A vector [a] broadcast onto axis 0 of the column [a, 1] reads, at (i, u), the vector at i. -/
theorem bcast_vec_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply (![0] : Fin 1 → Fin 2) h x (ix2 i u) (ix1 i) (fun ax => ?_)
  match ax with
  | ⟨0, _⟩ =>
    show i.val = if a = 1 then 0 else i.val
    split
    · have := i.isLt; omega
    · rfl

/-- A column [a, 1] broadcast onto axes 0, 1 of [a, b] reads, at (p, c), the column at row p. -/
theorem bcast_col_lanes_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) (u : Fin 1) :
    broadcastInDim ⟨2, ![a, b]⟩ (![0, 1] : Fin 2 → Fin 2) h v (ix2 p c) = v (ix2 p u) := by
  refine broadcastInDim_apply (![0, 1] : Fin 2 → Fin 2) h v (ix2 p c) (ix2 p u) (fun ax => ?_)
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.HostColumns

end
-- ==== Proof.LibRowBroadcast.lean ====
/-
  The host's broadcasts of a row and of a scalar, read at an index, generic in the extents.

  A row [1, C] broadcast onto axes 0, 1 of [R, C] reads, at (r, c), the row at (0, c): the same bias is
  added to every row.  A scalar broadcast to any shape reads the scalar everywhere.
-/
import Idealize.ShloMosaic.Lib.ValueIdx
import Idealize.ShloMosaic.Lib.Pipeline.Value

noncomputable section

namespace Cert.Lib.RowBroadcast

open Idealize.ShloMosaic Idealize.ShloMosaic.ValueIdx

variable {α : Type}

/-- A row [1, C] broadcast onto axes 0, 1 of [R, C], read at (r, c), is the row at (0, c). -/
theorem broadcastInDim_row_apply {R C : Nat} (x : (⟨2, ![1, C]⟩ : Shape).Idx → α)
    (h : (⟨2, ![1, C]⟩ : Shape).BroadcastsInDim ⟨2, ![R, C]⟩ (![0, 1] : Fin 2 → Fin 2)) (r : Fin R) (c : Fin C) :
    broadcastInDim ⟨2, ![R, C]⟩ (![0, 1] : Fin 2 → Fin 2) h x (ix2 r c) = x (ix2 0 c) :=
  broadcastInDim_apply (![0, 1] : Fin 2 → Fin 2) h x (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A scalar broadcast to any shape reads the scalar at every index. -/
theorem broadcastInDim_scalar_apply {t : Shape} (x : (⟨0, ![]⟩ : Shape).Idx → α)
    (h : (⟨0, ![]⟩ : Shape).BroadcastsInDim t (![] : Fin 0 → Fin t.rank)) (j : t.Idx) (k : (⟨0, ![]⟩ : Shape).Idx) :
    broadcastInDim t (![] : Fin 0 → Fin t.rank) h x j = x k :=
  broadcastInDim_apply (![] : Fin 0 → Fin t.rank) h x j k (fun a => a.elim0)

end Cert.Lib.RowBroadcast

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.LibRowForms.lean ====
/-
  A vector laid out as a row in two ways.

  A vector [C] becomes the row [1, C] either by a reshape or by a broadcast onto axis 1: both read, at (0, c),
  the vector at c, so they are the same row.
-/
import proofs.«162499_j60988535603566_1_alg».proof.Proof.LibRows

noncomputable section

namespace Cert.Lib.RowForms

open Idealize.ShloMosaic Idealize.ShloMosaic.ValueIdx

variable {α : Type}

/-- A vector [C] broadcast onto axis 1 of [1, C] is the vector reshaped to [1, C]. -/
theorem broadcastInDim_row_eq_shapeCast {C : Nat} (b : (⟨1, ![C]⟩ : Shape).Idx → α)
    (hb : (⟨1, ![C]⟩ : Shape).BroadcastsInDim ⟨2, ![1, C]⟩ (![1] : Fin 1 → Fin 2))
    (hs : (⟨1, ![C]⟩ : Shape).ShapeCasts ⟨2, ![1, C]⟩) :
    broadcastInDim ⟨2, ![1, C]⟩ (![1] : Fin 1 → Fin 2) hb b = shapeCast ⟨2, ![1, C]⟩ b hs := by
  funext j
  obtain ⟨p, q, rfl⟩ : ∃ (p : Fin 1) (q : Fin C), j = ix2 p q := ⟨j 0, j 1, eq_ix2 j⟩
  obtain rfl : p = 0 := Subsingleton.elim _ _
  rw [Cert.Lib.Rows.shapeCast_vec_row_apply]
  refine broadcastInDim_apply (![1] : Fin 1 → Fin 2) hb b (ix2 0 q) (ix1 q) (fun a => ?_)
  match a with
  | ⟨0, _⟩ =>
    show q.val = if C = 1 then 0 else q.val
    by_cases hC : C = 1
    · rw [if_pos hC]; have := q.isLt; omega
    · rw [if_neg hC]

end Cert.Lib.RowForms

end
-- ==== Proof.LibGraphLayer.lean ====
/-
  One graph-convolution layer, entry by entry, at the ideal values (floats extended reals, every operation exact).

  A layer of the network takes node features h [N, K], rescales row r by the source-side factor dout r, sums
  the rescaled rows over the incoming edges of each node (a gather followed by a scatter-add: not opened
  here), rescales row r of that aggregate by the destination-side factor din r, multiplies by the weights
  W [K, C], adds the bias b [C] to every row and clamps at zero.  Two functions state the arithmetic:

    scaleRows x d   (r, c)  =  x (r, c) · d (r, 0)
    denseRelu a d W b (r, c) =  max (Σ_k (a (r, k) · d (r, 0)) · W (k, c) + b c, 0)

  and the lemmas below say that both spellings met in the two programs are these functions: the vector
  unit's (a column cast and broadcast over the lanes, a matrix product into the zero accumulator, the bias
  cast to a row and broadcast down the rows, a maximum with the splat zero), read at a block-local index
  (p, q), and the host's (broadcasts onto named axes, a dot_general, a maximum with the broadcast scalar
  zero) as whole arrays.  No law of arithmetic is used: products and sums appear in the same order on all
  sides, so nothing here needs the entries to be finite.
-/
import proofs.«162499_j60988535603566_1_alg».proof.Proof.LibPlainDot
import proofs.«162499_j60988535603566_1_alg».proof.Proof.LibRowBlocks
import proofs.«162499_j60988535603566_1_alg».proof.Proof.LibColumns
import proofs.«162499_j60988535603566_1_alg».proof.Proof.LibHostColumns
import proofs.«162499_j60988535603566_1_alg».proof.Proof.LibRowBroadcast
import proofs.«162499_j60988535603566_1_alg».proof.Proof.LibRowForms
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.ValueIdx
open scoped BigOperators

variable {N K C : Nat}

/-- Row r of x multiplied by the factor d keeps for row r (a column [N, 1]). -/
def scaleRows (x : FVec Ideal ⟨2, ![N, C]⟩ .f32) (d : FVec Ideal ⟨2, ![N, 1]⟩ .f32) : FVec Ideal ⟨2, ![N, C]⟩ .f32 :=
  fun i => x i * d (ix2 ⟨(i 0).val, idx2_lt0 i⟩ 0)

theorem scaleRows_apply (x : FVec Ideal ⟨2, ![N, C]⟩ .f32) (d : FVec Ideal ⟨2, ![N, 1]⟩ .f32) (r : Fin N) (c : Fin C) :
    scaleRows x d (ix2 r c) = x (ix2 r c) * d (ix2 r 0) := rfl

/-- The dense half of a layer: row r of the aggregate a rescaled by d r, times the weights, plus the bias,
    clamped at zero. -/
def denseRelu (a : FVec Ideal ⟨2, ![N, K]⟩ .f32) (d : FVec Ideal ⟨2, ![N, 1]⟩ .f32) (w : FVec Ideal ⟨2, ![K, C]⟩ .f32)
    (b : FVec Ideal ⟨1, ![C]⟩ .f32) : FVec Ideal ⟨2, ![N, C]⟩ .f32 :=
  fun i => max ((∑ k : Fin K, (a (ix2 ⟨(i 0).val, idx2_lt0 i⟩ k) * d (ix2 ⟨(i 0).val, idx2_lt0 i⟩ 0)) * w (ix2 k ⟨(i 1).val, idx2_lt1 i⟩))
    + b (ix1 ⟨(i 1).val, idx2_lt1 i⟩)) (Ideal.ofBits .f32 0x00000000#32)

theorem denseRelu_apply (a : FVec Ideal ⟨2, ![N, K]⟩ .f32) (d : FVec Ideal ⟨2, ![N, 1]⟩ .f32) (w : FVec Ideal ⟨2, ![K, C]⟩ .f32)
    (b : FVec Ideal ⟨1, ![C]⟩ .f32) (r : Fin N) (c : Fin C) :
    denseRelu a d w b (ix2 r c)
      = max ((∑ k : Fin K, (a (ix2 r k) * d (ix2 r 0)) * w (ix2 k c)) + b (ix1 c)) (Ideal.ofBits .f32 0x00000000#32) := rfl

/-! ## The vector unit's spelling, read at a block-local index -/

/-- A block of rows times its column of factors, the column cast to itself and broadcast over the lanes:
    at (p, q) the block's entry times the factor of row p. -/
theorem scale_body {B : Nat} (x0 : FVec Ideal ⟨2, ![B, C]⟩ .f32) (x1 : FVec Ideal ⟨2, ![B, 1]⟩ .f32)
    (h1 : (⟨2, ![B, 1]⟩ : Shape).ShapeCasts ⟨2, ![B, 1]⟩) (h2 : (⟨2, ![B, 1]⟩ : Shape).Broadcasts ⟨2, ![B, C]⟩)
    (p : Fin B) (q : Fin C) :
    mulf x0 (broadcastTo ⟨2, ![B, C]⟩ (shapeCast ⟨2, ![B, 1]⟩ x1 h1) h2) (ix2 p q) = x0 (ix2 p q) * x1 (ix2 p 0) := by
  rw [mulf_apply, Cert.Columns.broadcastTo_a1_ab_apply _ h2 p q 0, shapeCast_self]

/-- The dense body on a block of B rows: the block rescaled by its column of factors, multiplied into the
    zero accumulator by the whole weights, the bias cast to a row and broadcast down the rows added, the
    maximum with the splat zero taken: at (p, q) the clamped sum over k. -/
theorem dense_body {B : Nat} (x0 : FVec Ideal ⟨2, ![B, K]⟩ .f32) (x1 : FVec Ideal ⟨2, ![B, 1]⟩ .f32)
    (w : FVec Ideal ⟨2, ![K, C]⟩ .f32) (b : FVec Ideal ⟨1, ![C]⟩ .f32)
    (h0 : (⟨2, ![B, K]⟩ : Shape).ShapeCasts ⟨2, ![B, K]⟩) (h1 : (⟨2, ![B, 1]⟩ : Shape).ShapeCasts ⟨2, ![B, 1]⟩)
    (h2 : (⟨2, ![B, 1]⟩ : Shape).Broadcasts ⟨2, ![B, K]⟩) (h3 : (⟨1, ![C]⟩ : Shape).ShapeCasts ⟨2, ![1, C]⟩)
    (h4 : (⟨2, ![1, C]⟩ : Shape).Broadcasts ⟨2, ![B, C]⟩) (prec : Option ContractPrecision) (p : Fin B) (q : Fin C) :
    maximumf (addf (matmul (DotDims.plain B K C) prec
          (mulf (shapeCast ⟨2, ![B, K]⟩ x0 h0) (broadcastTo ⟨2, ![B, K]⟩ (shapeCast ⟨2, ![B, 1]⟩ x1 h1) h2)) w
          (constant (F := Ideal) ⟨2, ![B, C]⟩ .f32 0x00000000#32))
        (broadcastTo ⟨2, ![B, C]⟩ (shapeCast ⟨2, ![1, C]⟩ b h3) h4))
      (broadcast ⟨2, ![B, C]⟩ (Scalar.ofBits (F := Ideal) .f32 0x00000000#32)) (ix2 p q)
      = max ((∑ k : Fin K, (x0 (ix2 p k) * x1 (ix2 p 0)) * w (ix2 k q)) + b (ix1 q)) (Ideal.ofBits .f32 0x00000000#32) := by
  rw [maximumf_apply, addf_apply, broadcast_apply, Cert.Lib.PlainDot.matmul_plain_zero_apply,
    Cert.Lib.Rows.broadcastTo_row_apply, Cert.Lib.Rows.shapeCast_vec_row_apply]
  refine congrArg₂ max (congrArg (· + b (ix1 q)) (Finset.sum_congr rfl fun k _ => ?_)) rfl
  rw [shapeCast_self, scale_body]

/-! ## The host's spelling, as whole arrays -/

/-- The host's row rescale: x times the column broadcast onto both axes. -/
theorem scale_host (x : FVec Ideal ⟨2, ![N, C]⟩ .f32) (d : FVec Ideal ⟨2, ![N, 1]⟩ .f32)
    (h : (⟨2, ![N, 1]⟩ : Shape).BroadcastsInDim ⟨2, ![N, C]⟩ (![0, 1] : Fin 2 → Fin 2)) :
    mulf x (broadcastInDim ⟨2, ![N, C]⟩ (![0, 1] : Fin 2 → Fin 2) h d) = scaleRows x d := by
  funext i
  obtain ⟨r, c, rfl⟩ : ∃ (r : Fin N) (c : Fin C), i = ix2 r c := ⟨i 0, i 1, eq_ix2 i⟩
  rw [mulf_apply, Cert.Lib.HostColumns.bcast_col_lanes_apply d h r c 0, scaleRows_apply]

/-- The host's dense half: the rescaled aggregate through a dot_general with the weights, the bias broadcast
    to a row and then down the rows added, the maximum with the broadcast scalar zero taken. -/
theorem dense_host (a : FVec Ideal ⟨2, ![N, K]⟩ .f32) (d : FVec Ideal ⟨2, ![N, 1]⟩ .f32) (w : FVec Ideal ⟨2, ![K, C]⟩ .f32)
    (b : FVec Ideal ⟨1, ![C]⟩ .f32)
    (h1 : (⟨2, ![N, 1]⟩ : Shape).BroadcastsInDim ⟨2, ![N, K]⟩ (![0, 1] : Fin 2 → Fin 2))
    (h2 : (⟨1, ![C]⟩ : Shape).BroadcastsInDim ⟨2, ![1, C]⟩ (![1] : Fin 1 → Fin 2))
    (h3 : (⟨2, ![1, C]⟩ : Shape).BroadcastsInDim ⟨2, ![N, C]⟩ (![0, 1] : Fin 2 → Fin 2))
    (h4 : (⟨0, ![]⟩ : Shape).BroadcastsInDim ⟨2, ![N, C]⟩ (![] : Fin 0 → Fin 2)) (prec : Option ContractPrecision) :
    maximumf (addf (Host.dotGeneral (DotDims.plain N K C) prec (mulf a (broadcastInDim ⟨2, ![N, K]⟩ (![0, 1] : Fin 2 → Fin 2) h1 d)) w)
        (broadcastInDim ⟨2, ![N, C]⟩ (![0, 1] : Fin 2 → Fin 2) h3 (broadcastInDim ⟨2, ![1, C]⟩ (![1] : Fin 1 → Fin 2) h2 b)))
      (broadcastInDim ⟨2, ![N, C]⟩ (![] : Fin 0 → Fin 2) h4 (constant (F := Ideal) ⟨0, ![]⟩ .f32 0x00000000#32))
      = denseRelu a d w b := by
  funext i
  obtain ⟨r, c, rfl⟩ : ∃ (r : Fin N) (c : Fin C), i = ix2 r c := ⟨i 0, i 1, eq_ix2 i⟩
  rw [maximumf_apply, addf_apply, Cert.Lib.RowBlocks.dotGeneral_plain_apply,
    Cert.Lib.RowBroadcast.broadcastInDim_row_apply, Cert.Lib.RowBroadcast.broadcastInDim_scalar_apply _ h4 (ix2 r c) ix0,
    denseRelu_apply]
  refine congrArg₂ max (congrArg₂ (· + ·) (Finset.sum_congr rfl fun k _ => ?_) ?_) rfl
  · rw [mulf_apply, Cert.Lib.HostColumns.bcast_col_lanes_apply d h1 r k 0]
  · exact broadcastInDim_apply (![1] : Fin 1 → Fin 2) h2 b (ix2 0 c) (ix1 c) (fun ax => by
      match ax with
      | ⟨0, _⟩ =>
        show c.val = if C = 1 then 0 else c.val
        by_cases hC : C = 1
        · rw [if_pos hC]; have := c.isLt; omega
        · rw [if_neg hC])

/-- The host's dense half over an aggregate whose rows are already rescaled. -/
theorem dense_of_scaled (a : FVec Ideal ⟨2, ![N, K]⟩ .f32) (d : FVec Ideal ⟨2, ![N, 1]⟩ .f32)
    (w : FVec Ideal ⟨2, ![K, C]⟩ .f32) (b : FVec Ideal ⟨1, ![C]⟩ .f32)
    (h1 : (⟨2, ![N, 1]⟩ : Shape).BroadcastsInDim ⟨2, ![N, K]⟩ (![0, 1] : Fin 2 → Fin 2))
    (h2 : (⟨1, ![C]⟩ : Shape).BroadcastsInDim ⟨2, ![1, C]⟩ (![1] : Fin 1 → Fin 2))
    (h3 : (⟨2, ![1, C]⟩ : Shape).BroadcastsInDim ⟨2, ![N, C]⟩ (![0, 1] : Fin 2 → Fin 2))
    (h4 : (⟨0, ![]⟩ : Shape).BroadcastsInDim ⟨2, ![N, C]⟩ (![] : Fin 0 → Fin 2)) (prec : Option ContractPrecision) :
    maximumf (addf (Host.dotGeneral (DotDims.plain N K C) prec (scaleRows a d) w)
        (broadcastInDim ⟨2, ![N, C]⟩ (![0, 1] : Fin 2 → Fin 2) h3 (broadcastInDim ⟨2, ![1, C]⟩ (![1] : Fin 1 → Fin 2) h2 b)))
      (broadcastInDim ⟨2, ![N, C]⟩ (![] : Fin 0 → Fin 2) h4 (constant (F := Ideal) ⟨0, ![]⟩ .f32 0x00000000#32))
      = denseRelu a d w b :=
  (scale_host a d h1) ▸ dense_host a d w b h1 h2 h3 h4 prec

end Cert.Gcn

end
-- ==== Proof.Region0.lean ====
/-
  Region 0: the source-side rescale of the input features.

  The kernel runs over ten blocks of 5000 nodes.  At block t it loads rows 5000·t … 5000·t + 4999 of the
  features [50000, 128] and of the column of source factors [50000, 1], multiplies each row by its factor, and
  writes the block back to the same rows of the output.  Every block is a restriction of one function of the
  two whole arrays — row r of the features times the factor of row r — and the ten blocks tile the output, so
  the output array ends holding that function.  Stated for any contents V of the buffers at the region's entry.
-/
import proofs.«162499_j60988535603566_1_alg».proof.Proof.FrameKernelIdeal
import proofs.«162499_j60988535603566_1_alg».proof.Proof.LibGraphLayer
import Idealize.ShloMosaic.Lib.Pipeline.Value

set_option maxRecDepth 16384

noncomputable section

namespace Cert.KernelIdeal.Region0

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The body's one stored value at the block-local index (p, q): the loaded block's entry times the factor of
    its row. -/
theorem pay_at (x0 : Vec Ideal S5000x128 .f32) (x1 : Vec Ideal S5000x1 .f32) (p : Fin 5000) (q : Fin 128) :
    k0_pay1 x0 x1 (ix2 p q) = x0 (ix2 p q) * x1 (ix2 p 0) := by
  unfold k0_pay1
  exact Cert.Gcn.scale_body x0 x1 _ _ p q

/-- The three index maps over the ten grid points: block t of every window starts at row block t, column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of the rescaled features. -/
theorem flushed_eq (c : Dev nD) (t : Fin cfg0.N) :
    (dat0 V c).flushed 2 t
      = ((cfg0.win 2).blk t).view.read (Elt Ideal) (Cert.Gcn.scaleRows (V c main_arg2) (V c main_v11)) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S5000x1) hz2]
  obtain ⟨e00, e01, e10, e11, e20, e21⟩ := idx_facts t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = Cert.Gcn.scaleRows (V c main_arg2) (V c main_v11) (((cfg0.win 2).blk t).view.emb (ix2 p q))
  refine (pay_at (iblk0 V c 0 t) (iblk0 V c 1 t) p q).trans ?_
  have h0 : ((cfg0.win 0).blk t).view.emb (ix2 p q) = ((cfg0.win 2).blk t).view.emb (ix2 p q) := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * q.val = win0_2.index t (1 : Fin 2) * 128 + 1 * q.val; omega
  have h1 : ((cfg0.win 1).blk t).view.emb (ix2 p 0)
      = ix2 ⟨((((cfg0.win 2).blk t).view.emb (ix2 p q)) 0).val, idx2_lt0 _⟩ 0 := by
    funext a; apply Fin.ext
    match a with
    | ⟨0, _⟩ => show win0_1.index t (0 : Fin 2) * 5000 + 1 * p.val = win0_2.index t (0 : Fin 2) * 5000 + 1 * p.val; omega
    | ⟨1, _⟩ => show win0_1.index t (1 : Fin 2) * 1 + 1 * 0 = 0; omega
  have r0 : iblk0 V c 0 t (ix2 p q) = V c main_arg2 (((cfg0.win 2).blk t).view.emb (ix2 p q)) :=
    congrArg (V c main_arg2) h0
  have r1 : iblk0 V c 1 t (ix2 p 0)
      = V c main_v11 (ix2 ⟨((((cfg0.win 2).blk t).view.emb (ix2 p q)) 0).val, idx2_lt0 _⟩ 0) :=
    congrArg (V c main_v11) h1
  rw [r0, r1]
  rfl

/-- An index of the output is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v14).slice (win0_2.rect t)).set ↔ _
  rw [View.set_slice_whole, Rect.mem_set_unit]
  exact Iff.rfl

/-- Row r of the output lies in the block of point r / 5000. -/
theorem cover (i : S50000x128.Idx) : ∃ t : Fin cfg0.N, (cfg0.win 2).flush t = true ∧ i ∈ ((cfg0.win 2).blk t).view.set := by
  have hi0 : (i 0).val < 50000 := idx2_lt0 i
  have hi1 : (i 1).val < 128 := idx2_lt1 i
  let t : Fin cfg0.N := ⟨(i 0).val / 5000, by rw [show cfg0.N = 10 from N_0]; omega⟩
  obtain ⟨-, -, -, -, e20, e21⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the output array holds the features with every row rescaled by its source factor. -/
theorem final (c : Dev nD) :
    (dat0 V c).arrAt 2 cfg0.N = Cert.Gcn.scaleRows (V c main_arg2) (V c main_v11) :=
  (dat0 V c).arrAt_eq_of_cover 2 _ (fun t _ => flushed_eq V c t) cover

end Cert.KernelIdeal.Region0

end
-- ==== Proof.Region1.lean ====
/-
  Region 1: the dense half of a layer, with the next layer's source rescale fused in.

  The kernel runs over ten blocks of 5000 nodes.  At block t it loads rows 5000·t … 5000·t + 4999 of the
  aggregate [50000, 128], of the destination factors [50000, 1] and of the source factors [50000, 1], and the
  whole weights [128, 128] and bias [128]; it rescales each aggregate row by its destination factor, multiplies
  by the weights on the matrix unit, adds the bias, clamps at zero, and writes that block out; the same block
  with each row multiplied by its source factor is the second output, which the next layer gathers from.  That
  second block is a restriction of one function of the five whole arrays, and the ten blocks tile the output,
  so the second output array ends holding that function.  Stated for any contents V of the buffers at the
  region's entry.
-/
import proofs.«162499_j60988535603566_1_alg».proof.Proof.FrameKernelIdeal
import proofs.«162499_j60988535603566_1_alg».proof.Proof.LibGraphLayer
import Idealize.ShloMosaic.Lib.Pipeline.Value

set_option maxRecDepth 16384

noncomputable section

namespace Cert.KernelIdeal.Region1

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The second stored value at the block-local index (p, q): the clamped sum over k, times the source factor of
    the row. -/
theorem pay_at (x0 : Vec Ideal S5000x128 .f32) (x1 : Vec Ideal S5000x1 .f32) (w : Vec Ideal S128x128 .f32)
    (b : Vec Ideal S128 .f32) (x2 : Vec Ideal S5000x1 .f32) (p : Fin 5000) (q : Fin 128) :
    k1_pay2 x0 x1 w b x2 (ix2 p q)
      = max ((∑ k : Fin 128, (x0 (ix2 p k) * x1 (ix2 p 0)) * w (ix2 k q)) + b (ix1 q)) (Ideal.ofBits .f32 0x00000000#32)
        * x2 (ix2 p 0) := by
  unfold k1_pay2
  refine (Cert.Gcn.scale_body (k1_pay1 x0 x1 w b) x2 _ _ p q).trans ?_
  refine congrArg (· * x2 (ix2 p 0)) ?_
  unfold k1_pay1
  exact Cert.Gcn.dense_body (B := 5000) (K := 128) (C := 128) x0 x1 w b _ _ _ _ _ none p q

/-- The index maps over the ten grid points: the three row-blocked inputs and the second output start at row
    block t; the weights and the bias are whole at every point. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_6.index t (0 : Fin 2) = t.val ∧ win1_6.index t (1 : Fin 2) = 0 :=
  (by decide +kernel : ∀ t : Fin grid1.N, _)

/-- What point t writes back to the second output is block t of the layer's output rescaled by the source factors. -/
theorem flushed_eq (c : Dev nD) (t : Fin cfg1.N) :
    (dat1 V c).flushed 6 t = ((cfg1.win 6).blk t).view.read (Elt Ideal)
      (Cert.Gcn.scaleRows (Cert.Gcn.denseRelu (V c main_v24) (V c main_v13) (V c main_arg3) (V c main_arg4)) (V c main_v11)) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S5000x1) hz2,
    View.ld_unit_zero (S := S128x128) hz2, View.ld_unit_zero (S := S128) hz1]
  obtain ⟨e00, e01, e10, e11, e20, e21, e30, e31, e40, e60, e61⟩ := idx_facts t
  funext j
  obtain ⟨p, q, rfl⟩ : ∃ (p : Fin 5000) (q : Fin 128), j = ix2 p q := ⟨j 0, j 1, eq_ix2 j⟩
  show k1_pay2 (iblk1 V c 0 t) (iblk1 V c 1 t) (iblk1 V c 3 t) (iblk1 V c 4 t) (iblk1 V c 2 t) (ix2 p q)
    = Cert.Gcn.scaleRows (Cert.Gcn.denseRelu (V c main_v24) (V c main_v13) (V c main_arg3) (V c main_arg4)) (V c main_v11)
        (((cfg1.win 6).blk t).view.emb (ix2 p q))
  refine (pay_at (iblk1 V c 0 t) (iblk1 V c 1 t) (iblk1 V c 3 t) (iblk1 V c 4 t) (iblk1 V c 2 t) p q).trans ?_
  have h0 : ∀ k : Fin 128, ((cfg1.win 0).blk t).view.emb (ix2 p k)
      = ix2 ⟨((((cfg1.win 6).blk t).view.emb (ix2 p q)) 0).val, idx2_lt0 _⟩ k := fun k => by
    funext a; apply Fin.ext
    match a with
    | ⟨0, _⟩ => show win1_0.index t (0 : Fin 2) * 5000 + 1 * p.val = win1_6.index t (0 : Fin 2) * 5000 + 1 * p.val; omega
    | ⟨1, _⟩ => show win1_0.index t (1 : Fin 2) * 128 + 1 * k.val = k.val; omega
  have h1 : ((cfg1.win 1).blk t).view.emb (ix2 p 0)
      = ix2 ⟨((((cfg1.win 6).blk t).view.emb (ix2 p q)) 0).val, idx2_lt0 _⟩ 0 := by
    funext a; apply Fin.ext
    match a with
    | ⟨0, _⟩ => show win1_1.index t (0 : Fin 2) * 5000 + 1 * p.val = win1_6.index t (0 : Fin 2) * 5000 + 1 * p.val; omega
    | ⟨1, _⟩ => show win1_1.index t (1 : Fin 2) * 1 + 1 * 0 = 0; omega
  have h2 : ((cfg1.win 2).blk t).view.emb (ix2 p 0)
      = ix2 ⟨((((cfg1.win 6).blk t).view.emb (ix2 p q)) 0).val, idx2_lt0 _⟩ 0 := by
    funext a; apply Fin.ext
    match a with
    | ⟨0, _⟩ => show win1_2.index t (0 : Fin 2) * 5000 + 1 * p.val = win1_6.index t (0 : Fin 2) * 5000 + 1 * p.val; omega
    | ⟨1, _⟩ => show win1_2.index t (1 : Fin 2) * 1 + 1 * 0 = 0; omega
  have h3 : ∀ k : Fin 128, ((cfg1.win 3).blk t).view.emb (ix2 k q)
      = ix2 k ⟨((((cfg1.win 6).blk t).view.emb (ix2 p q)) 1).val, idx2_lt1 _⟩ := fun k => by
    funext a; apply Fin.ext
    match a with
    | ⟨0, _⟩ => show win1_3.index t (0 : Fin 2) * 128 + 1 * k.val = k.val; omega
    | ⟨1, _⟩ => show win1_3.index t (1 : Fin 2) * 128 + 1 * q.val = win1_6.index t (1 : Fin 2) * 128 + 1 * q.val; omega
  have h4 : ((cfg1.win 4).blk t).view.emb (ix1 q)
      = ix1 ⟨((((cfg1.win 6).blk t).view.emb (ix2 p q)) 1).val, idx2_lt1 _⟩ := by
    funext a; apply Fin.ext
    match a with
    | ⟨0, _⟩ => show win1_4.index t (0 : Fin 1) * 128 + 1 * q.val = win1_6.index t (1 : Fin 2) * 128 + 1 * q.val; omega
  have r0 : ∀ k : Fin 128, iblk1 V c 0 t (ix2 p k)
      = V c main_v24 (ix2 ⟨((((cfg1.win 6).blk t).view.emb (ix2 p q)) 0).val, idx2_lt0 _⟩ k) :=
    fun k => congrArg (V c main_v24) (h0 k)
  have r1 : iblk1 V c 1 t (ix2 p 0)
      = V c main_v13 (ix2 ⟨((((cfg1.win 6).blk t).view.emb (ix2 p q)) 0).val, idx2_lt0 _⟩ 0) :=
    congrArg (V c main_v13) h1
  have r2 : iblk1 V c 2 t (ix2 p 0)
      = V c main_v11 (ix2 ⟨((((cfg1.win 6).blk t).view.emb (ix2 p q)) 0).val, idx2_lt0 _⟩ 0) :=
    congrArg (V c main_v11) h2
  have r3 : ∀ k : Fin 128, iblk1 V c 3 t (ix2 k q)
      = V c main_arg3 (ix2 k ⟨((((cfg1.win 6).blk t).view.emb (ix2 p q)) 1).val, idx2_lt1 _⟩) :=
    fun k => congrArg (V c main_arg3) (h3 k)
  have r4 : iblk1 V c 4 t (ix1 q)
      = V c main_arg4 (ix1 ⟨((((cfg1.win 6).blk t).view.emb (ix2 p q)) 1).val, idx2_lt1 _⟩) :=
    congrArg (V c main_arg4) h4
  simp only [r0, r1, r2, r3, r4]
  rfl

/-- An index of the second output is in point t's block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v25_1).slice (win1_6.rect t)).set ↔ _
  rw [View.set_slice_whole, Rect.mem_set_unit]
  exact Iff.rfl

/-- Row r of the second output lies in the block of point r / 5000. -/
theorem cover (i : S50000x128.Idx) : ∃ t : Fin cfg1.N, (cfg1.win 6).flush t = true ∧ i ∈ ((cfg1.win 6).blk t).view.set := by
  have hi0 : (i 0).val < 50000 := idx2_lt0 i
  have hi1 : (i 1).val < 128 := idx2_lt1 i
  let t : Fin cfg1.N := ⟨(i 0).val / 5000, by rw [show cfg1.N = 10 from N_1]; omega⟩
  obtain ⟨-, -, -, -, -, -, -, -, -, e60, e61⟩ := idx_facts t
  have ht : t.val = (i 0).val / 5000 := rfl
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- After the region the second output array holds the layer's output with every row rescaled by its source factor. -/
theorem final (c : Dev nD) :
    (dat1 V c).arrAt 6 cfg1.N
      = Cert.Gcn.scaleRows (Cert.Gcn.denseRelu (V c main_v24) (V c main_v13) (V c main_arg3) (V c main_arg4)) (V c main_v11) :=
  (dat1 V c).arrAt_eq_of_cover 6 _ (fun t _ => flushed_eq V c t) cover

end Cert.KernelIdeal.Region1

end
-- ==== Proof.Region2.lean ====
/-
  Region 2: the dense half of a layer, with the next layer's source rescale fused in.

  The kernel runs over ten blocks of 5000 nodes.  At block t it loads rows 5000·t … 5000·t + 4999 of the
  aggregate [50000, 128], of the destination factors [50000, 1] and of the source factors [50000, 1], and the
  whole weights [128, 128] and bias [128]; it rescales each aggregate row by its destination factor, multiplies
  by the weights on the matrix unit, adds the bias, clamps at zero, and writes that block out; the same block
  with each row multiplied by its source factor is the second output, which the next layer gathers from.  That
  second block is a restriction of one function of the five whole arrays, and the ten blocks tile the output,
  so the second output array ends holding that function.  Stated for any contents V of the buffers at the
  region's entry.
-/
import proofs.«162499_j60988535603566_1_alg».proof.Proof.FrameKernelIdeal
import proofs.«162499_j60988535603566_1_alg».proof.Proof.LibGraphLayer
import Idealize.ShloMosaic.Lib.Pipeline.Value

set_option maxRecDepth 16384

noncomputable section

namespace Cert.KernelIdeal.Region2

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The second stored value at the block-local index (p, q): the clamped sum over k, times the source factor of
    the row. -/
theorem pay_at (x0 : Vec Ideal S5000x128 .f32) (x1 : Vec Ideal S5000x1 .f32) (w : Vec Ideal S128x128 .f32)
    (b : Vec Ideal S128 .f32) (x2 : Vec Ideal S5000x1 .f32) (p : Fin 5000) (q : Fin 128) :
    k2_pay2 x0 x1 w b x2 (ix2 p q)
      = max ((∑ k : Fin 128, (x0 (ix2 p k) * x1 (ix2 p 0)) * w (ix2 k q)) + b (ix1 q)) (Ideal.ofBits .f32 0x00000000#32)
        * x2 (ix2 p 0) := by
  unfold k2_pay2
  refine (Cert.Gcn.scale_body (k2_pay1 x0 x1 w b) x2 _ _ p q).trans ?_
  refine congrArg (· * x2 (ix2 p 0)) ?_
  unfold k2_pay1
  exact Cert.Gcn.dense_body (B := 5000) (K := 128) (C := 128) x0 x1 w b _ _ _ _ _ none p q

/-- The index maps over the ten grid points: the three row-blocked inputs and the second output start at row
    block t; the weights and the bias are whole at every point. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_6.index t (0 : Fin 2) = t.val ∧ win2_6.index t (1 : Fin 2) = 0 :=
  (by decide +kernel : ∀ t : Fin grid2.N, _)

/-- What point t writes back to the second output is block t of the layer's output rescaled by the source factors. -/
theorem flushed_eq (c : Dev nD) (t : Fin cfg2.N) :
    (dat2 V c).flushed 6 t = ((cfg2.win 6).blk t).view.read (Elt Ideal)
      (Cert.Gcn.scaleRows (Cert.Gcn.denseRelu (V c main_v35) (V c main_v13) (V c main_arg5) (V c main_arg6)) (V c main_v11)) := by
  show (cfg2.win 6).cut (grid2.coords t) ((dat2 V c).after 6 t) = _
  rw [after2_6]
  unfold out2_6
  rw [View.canon_unit_zero hz2]
  simp only [View.ld_unit_zero (S := S5000x128) hz2, View.ld_unit_zero (S := S5000x1) hz2,
    View.ld_unit_zero (S := S128x128) hz2, View.ld_unit_zero (S := S128) hz1]
  obtain ⟨e00, e01, e10, e11, e20, e21, e30, e31, e40, e60, e61⟩ := idx_facts t
  funext j
  obtain ⟨p, q, rfl⟩ : ∃ (p : Fin 5000) (q : Fin 128), j = ix2 p q := ⟨j 0, j 1, eq_ix2 j⟩
  show k2_pay2 (iblk2 V c 0 t) (iblk2 V c 1 t) (iblk2 V c 3 t) (iblk2 V c 4 t) (iblk2 V c 2 t) (ix2 p q)
    = Cert.Gcn.scaleRows (Cert.Gcn.denseRelu (V c main_v35) (V c main_v13) (V c main_arg5) (V c main_arg6)) (V c main_v11)
        (((cfg2.win 6).blk t).view.emb (ix2 p q))
  refine (pay_at (iblk2 V c 0 t) (iblk2 V c 1 t) (iblk2 V c 3 t) (iblk2 V c 4 t) (iblk2 V c 2 t) p q).trans ?_
  have h0 : ∀ k : Fin 128, ((cfg2.win 0).blk t).view.emb (ix2 p k)
      = ix2 ⟨((((cfg2.win 6).blk t).view.emb (ix2 p q)) 0).val, idx2_lt0 _⟩ k := fun k => by
    funext a; apply Fin.ext
    match a with
    | ⟨0, _⟩ => show win2_0.index t (0 : Fin 2) * 5000 + 1 * p.val = win2_6.index t (0 : Fin 2) * 5000 + 1 * p.val; omega
    | ⟨1, _⟩ => show win2_0.index t (1 : Fin 2) * 128 + 1 * k.val = k.val; omega
  have h1 : ((cfg2.win 1).blk t).view.emb (ix2 p 0)
      = ix2 ⟨((((cfg2.win 6).blk t).view.emb (ix2 p q)) 0).val, idx2_lt0 _⟩ 0 := by
    funext a; apply Fin.ext
    match a with
    | ⟨0, _⟩ => show win2_1.index t (0 : Fin 2) * 5000 + 1 * p.val = win2_6.index t (0 : Fin 2) * 5000 + 1 * p.val; omega
    | ⟨1, _⟩ => show win2_1.index t (1 : Fin 2) * 1 + 1 * 0 = 0; omega
  have h2 : ((cfg2.win 2).blk t).view.emb (ix2 p 0)
      = ix2 ⟨((((cfg2.win 6).blk t).view.emb (ix2 p q)) 0).val, idx2_lt0 _⟩ 0 := by
    funext a; apply Fin.ext
    match a with
    | ⟨0, _⟩ => show win2_2.index t (0 : Fin 2) * 5000 + 1 * p.val = win2_6.index t (0 : Fin 2) * 5000 + 1 * p.val; omega
    | ⟨1, _⟩ => show win2_2.index t (1 : Fin 2) * 1 + 1 * 0 = 0; omega
  have h3 : ∀ k : Fin 128, ((cfg2.win 3).blk t).view.emb (ix2 k q)
      = ix2 k ⟨((((cfg2.win 6).blk t).view.emb (ix2 p q)) 1).val, idx2_lt1 _⟩ := fun k => by
    funext a; apply Fin.ext
    match a with
    | ⟨0, _⟩ => show win2_3.index t (0 : Fin 2) * 128 + 1 * k.val = k.val; omega
    | ⟨1, _⟩ => show win2_3.index t (1 : Fin 2) * 128 + 1 * q.val = win2_6.index t (1 : Fin 2) * 128 + 1 * q.val; omega
  have h4 : ((cfg2.win 4).blk t).view.emb (ix1 q)
      = ix1 ⟨((((cfg2.win 6).blk t).view.emb (ix2 p q)) 1).val, idx2_lt1 _⟩ := by
    funext a; apply Fin.ext
    match a with
    | ⟨0, _⟩ => show win2_4.index t (0 : Fin 1) * 128 + 1 * q.val = win2_6.index t (1 : Fin 2) * 128 + 1 * q.val; omega
  have r0 : ∀ k : Fin 128, iblk2 V c 0 t (ix2 p k)
      = V c main_v35 (ix2 ⟨((((cfg2.win 6).blk t).view.emb (ix2 p q)) 0).val, idx2_lt0 _⟩ k) :=
    fun k => congrArg (V c main_v35) (h0 k)
  have r1 : iblk2 V c 1 t (ix2 p 0)
      = V c main_v13 (ix2 ⟨((((cfg2.win 6).blk t).view.emb (ix2 p q)) 0).val, idx2_lt0 _⟩ 0) :=
    congrArg (V c main_v13) h1
  have r2 : iblk2 V c 2 t (ix2 p 0)
      = V c main_v11 (ix2 ⟨((((cfg2.win 6).blk t).view.emb (ix2 p q)) 0).val, idx2_lt0 _⟩ 0) :=
    congrArg (V c main_v11) h2
  have r3 : ∀ k : Fin 128, iblk2 V c 3 t (ix2 k q)
      = V c main_arg5 (ix2 k ⟨((((cfg2.win 6).blk t).view.emb (ix2 p q)) 1).val, idx2_lt1 _⟩) :=
    fun k => congrArg (V c main_arg5) (h3 k)
  have r4 : iblk2 V c 4 t (ix1 q)
      = V c main_arg6 (ix1 ⟨((((cfg2.win 6).blk t).view.emb (ix2 p q)) 1).val, idx2_lt1 _⟩) :=
    congrArg (V c main_arg6) h4
  simp only [r0, r1, r2, r3, r4]
  rfl

/-- An index of the second output is in point t's block iff each coordinate is in the block's range on its axis. -/
theorem mem_blk (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v36_1).slice (win2_6.rect t)).set ↔ _
  rw [View.set_slice_whole, Rect.mem_set_unit]
  exact Iff.rfl

/-- Row r of the second output lies in the block of point r / 5000. -/
theorem cover (i : S50000x128.Idx) : ∃ t : Fin cfg2.N, (cfg2.win 6).flush t = true ∧ i ∈ ((cfg2.win 6).blk t).view.set := by
  have hi0 : (i 0).val < 50000 := idx2_lt0 i
  have hi1 : (i 1).val < 128 := idx2_lt1 i
  let t : Fin cfg2.N := ⟨(i 0).val / 5000, by rw [show cfg2.N = 10 from N_2]; omega⟩
  obtain ⟨-, -, -, -, -, -, -, -, -, e60, e61⟩ := idx_facts t
  have ht : t.val = (i 0).val / 5000 := rfl
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- After the region the second output array holds the layer's output with every row rescaled by its source factor. -/
theorem final (c : Dev nD) :
    (dat2 V c).arrAt 6 cfg2.N
      = Cert.Gcn.scaleRows (Cert.Gcn.denseRelu (V c main_v35) (V c main_v13) (V c main_arg5) (V c main_arg6)) (V c main_v11) :=
  (dat2 V c).arrAt_eq_of_cover 6 _ (fun t _ => flushed_eq V c t) cover

end Cert.KernelIdeal.Region2

end
-- ==== Proof.Region3.lean ====
/-
  Region 3: the dense half of the last layer.

  The kernel runs over ten blocks of 5000 nodes.  At block t it loads rows 5000·t … 5000·t + 4999 of the
  aggregate [50000, 128] and of the destination factors [50000, 1], and the whole weights [128, 64] and bias
  [64]; it rescales each aggregate row by its destination factor, multiplies by the weights on the matrix unit,
  adds the bias, clamps at zero, and writes the block to the same rows of the result [50000, 64].  Every block
  is a restriction of one function of the four whole arrays, and the ten blocks tile the result, so the result
  array ends holding that function.  Stated for any contents V of the buffers at the region's entry.
-/
import proofs.«162499_j60988535603566_1_alg».proof.Proof.FrameKernelIdeal
import proofs.«162499_j60988535603566_1_alg».proof.Proof.LibGraphLayer
import Idealize.ShloMosaic.Lib.Pipeline.Value

set_option maxRecDepth 16384

noncomputable section

namespace Cert.KernelIdeal.Region3

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The stored value at the block-local index (p, q): the clamped sum over k. -/
theorem pay_at (x0 : Vec Ideal S5000x128 .f32) (x1 : Vec Ideal S5000x1 .f32) (w : Vec Ideal S128x64 .f32)
    (b : Vec Ideal S64 .f32) (p : Fin 5000) (q : Fin 64) :
    k3_pay1 x0 x1 w b (ix2 p q)
      = max ((∑ k : Fin 128, (x0 (ix2 p k) * x1 (ix2 p 0)) * w (ix2 k q)) + b (ix1 q)) (Ideal.ofBits .f32 0x00000000#32) := by
  unfold k3_pay1
  exact Cert.Gcn.dense_body (B := 5000) (K := 128) (C := 64) x0 x1 w b _ _ _ _ _ none p q

/-- The index maps over the ten grid points: the two row-blocked inputs and the result start at row block t;
    the weights and the bias are whole at every point. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- What point t writes back is block t of the last layer's output. -/
theorem flushed_eq (c : Dev nD) (t : Fin cfg3.N) :
    (dat3 V c).flushed 4 t = ((cfg3.win 4).blk t).view.read (Elt Ideal)
      (Cert.Gcn.denseRelu (V c main_v46) (V c main_v13) (V c main_arg7) (V c main_arg8)) := by
  show (cfg3.win 4).cut (grid3.coords t) ((dat3 V c).after 4 t) = _
  rw [after3_4]
  unfold out3_4
  rw [View.canon_unit_zero hz2]
  simp only [View.ld_unit_zero (S := S5000x128) hz2, View.ld_unit_zero (S := S5000x1) hz2,
    View.ld_unit_zero (S := S128x64) hz2, View.ld_unit_zero (S := S64) hz1]
  obtain ⟨e00, e01, e10, e11, e20, e21, e30, e40, e41⟩ := idx_facts t
  funext j
  obtain ⟨p, q, rfl⟩ : ∃ (p : Fin 5000) (q : Fin 64), j = ix2 p q := ⟨j 0, j 1, eq_ix2 j⟩
  show k3_pay1 (iblk3 V c 0 t) (iblk3 V c 1 t) (iblk3 V c 2 t) (iblk3 V c 3 t) (ix2 p q)
    = Cert.Gcn.denseRelu (V c main_v46) (V c main_v13) (V c main_arg7) (V c main_arg8)
        (((cfg3.win 4).blk t).view.emb (ix2 p q))
  refine (pay_at (iblk3 V c 0 t) (iblk3 V c 1 t) (iblk3 V c 2 t) (iblk3 V c 3 t) p q).trans ?_
  have h0 : ∀ k : Fin 128, ((cfg3.win 0).blk t).view.emb (ix2 p k)
      = ix2 ⟨((((cfg3.win 4).blk t).view.emb (ix2 p q)) 0).val, idx2_lt0 _⟩ k := fun k => by
    funext a; apply Fin.ext
    match a with
    | ⟨0, _⟩ => show win3_0.index t (0 : Fin 2) * 5000 + 1 * p.val = win3_4.index t (0 : Fin 2) * 5000 + 1 * p.val; omega
    | ⟨1, _⟩ => show win3_0.index t (1 : Fin 2) * 128 + 1 * k.val = k.val; omega
  have h1 : ((cfg3.win 1).blk t).view.emb (ix2 p 0)
      = ix2 ⟨((((cfg3.win 4).blk t).view.emb (ix2 p q)) 0).val, idx2_lt0 _⟩ 0 := by
    funext a; apply Fin.ext
    match a with
    | ⟨0, _⟩ => show win3_1.index t (0 : Fin 2) * 5000 + 1 * p.val = win3_4.index t (0 : Fin 2) * 5000 + 1 * p.val; omega
    | ⟨1, _⟩ => show win3_1.index t (1 : Fin 2) * 1 + 1 * 0 = 0; omega
  have h2 : ∀ k : Fin 128, ((cfg3.win 2).blk t).view.emb (ix2 k q)
      = ix2 k ⟨((((cfg3.win 4).blk t).view.emb (ix2 p q)) 1).val, idx2_lt1 _⟩ := fun k => by
    funext a; apply Fin.ext
    match a with
    | ⟨0, _⟩ => show win3_2.index t (0 : Fin 2) * 128 + 1 * k.val = k.val; omega
    | ⟨1, _⟩ => show win3_2.index t (1 : Fin 2) * 64 + 1 * q.val = win3_4.index t (1 : Fin 2) * 64 + 1 * q.val; omega
  have h3 : ((cfg3.win 3).blk t).view.emb (ix1 q)
      = ix1 ⟨((((cfg3.win 4).blk t).view.emb (ix2 p q)) 1).val, idx2_lt1 _⟩ := by
    funext a; apply Fin.ext
    match a with
    | ⟨0, _⟩ => show win3_3.index t (0 : Fin 1) * 64 + 1 * q.val = win3_4.index t (1 : Fin 2) * 64 + 1 * q.val; omega
  have r0 : ∀ k : Fin 128, iblk3 V c 0 t (ix2 p k)
      = V c main_v46 (ix2 ⟨((((cfg3.win 4).blk t).view.emb (ix2 p q)) 0).val, idx2_lt0 _⟩ k) :=
    fun k => congrArg (V c main_v46) (h0 k)
  have r1 : iblk3 V c 1 t (ix2 p 0)
      = V c main_v13 (ix2 ⟨((((cfg3.win 4).blk t).view.emb (ix2 p q)) 0).val, idx2_lt0 _⟩ 0) :=
    congrArg (V c main_v13) h1
  have r2 : ∀ k : Fin 128, iblk3 V c 2 t (ix2 k q)
      = V c main_arg7 (ix2 k ⟨((((cfg3.win 4).blk t).view.emb (ix2 p q)) 1).val, idx2_lt1 _⟩) :=
    fun k => congrArg (V c main_arg7) (h2 k)
  have r3 : iblk3 V c 3 t (ix1 q)
      = V c main_arg8 (ix1 ⟨((((cfg3.win 4).blk t).view.emb (ix2 p q)) 1).val, idx2_lt1 _⟩) :=
    congrArg (V c main_arg8) h3
  simp only [r0, r1, r2, r3]
  rfl

/-- An index of the result is in point t's block iff each coordinate is in the block's range on its axis. -/
theorem mem_blk (t : Fin cfg3.N) (i : S50000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v47).slice (win3_4.rect t)).set ↔ _
  rw [View.set_slice_whole, Rect.mem_set_unit]
  exact Iff.rfl

/-- Row r of the result lies in the block of point r / 5000. -/
theorem cover (i : S50000x64.Idx) : ∃ t : Fin cfg3.N, (cfg3.win 4).flush t = true ∧ i ∈ ((cfg3.win 4).blk t).view.set := by
  have hi0 : (i 0).val < 50000 := idx2_lt0 i
  have hi1 : (i 1).val < 64 := idx2_lt1 i
  let t : Fin cfg3.N := ⟨(i 0).val / 5000, by rw [show cfg3.N = 10 from N_3]; omega⟩
  obtain ⟨-, -, -, -, -, -, -, e40, e41⟩ := idx_facts t
  have ht : t.val = (i 0).val / 5000 := rfl
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- After the region the result array holds the last layer's output. -/
theorem final (c : Dev nD) :
    (dat3 V c).arrAt 4 cfg3.N = Cert.Gcn.denseRelu (V c main_v46) (V c main_v13) (V c main_arg7) (V c main_arg8) :=
  (dat3 V c).arrAt_eq_of_cover 4 _ (fun t _ => flushed_eq V c t) cover

end Cert.KernelIdeal.Region3

end
-- ==== Proof.Walk.lean ====
/-
  The idealized kernel's result as one function of its arguments.

  The program alternates host stretches and kernel regions.  Its frame names the buffer contents at the eight
  boundaries W1 … W8.  Reading them in order: the first stretch appends the self loops to the two edge lists and
  computes the two degree normalisations; region 0 rescales the features; each later stretch sums the rescaled
  rows over incoming edges (the two edge lists and the normalisations are written nowhere after the first
  stretch, and no argument is written at all, so they are carried unchanged across every later segment); regions
  1 and 2 apply a layer's dense half and the next layer's rescale; region 3 applies the last dense half.  The
  result buffer at W8 is therefore the three layers composed.
-/
import proofs.«162499_j60988535603566_1_alg».proof.Proof.Region0
import proofs.«162499_j60988535603566_1_alg».proof.Proof.Region1
import proofs.«162499_j60988535603566_1_alg».proof.Proof.Region2
import proofs.«162499_j60988535603566_1_alg».proof.Proof.Region3

set_option maxRecDepth 16384

noncomputable section

namespace Cert.KernelIdeal.Walk

open Cert.KernelIdeal Cert.KernelIdeal.Gen Cert.KernelIdeal.GenP
open Idealize.ShloMosaic Idealize.ShloMosaic.TcCoe Idealize.SL.Sem Idealize.ShloMosaic.StableHlo

/-- The listed edge ends with one self loop per node appended. -/
def withLoops (e : (⟨S800000, .i32⟩ : BufTy).Contents (Elt Ideal)) : (⟨S850000, .i32⟩ : BufTy).Contents (Elt Ideal) :=
  concatenate S850000 0 [⟨S800000, e⟩, ⟨S50000, iotaInDim S50000 32 0⟩] concatenates_S800000_S50000_S850000_d0

/-- The degree normalisation as a column: one is added at every listed node, and the reciprocal square root of
    each count is taken. -/
def invSqrtDeg (e : (⟨S850000, .i32⟩ : BufTy).Contents (Elt Ideal)) : (⟨S50000x1, .f32⟩ : BufTy).Contents (Elt Ideal) :=
  broadcastInDim S50000x1 ![0] bcast_S50000_S50000x1_0
    (Host.rsqrt (F := Ideal) (Host.scatterAdd (F := Ideal) scatter_S50000_S850000x1_S850000_n_0_0_1
      (broadcastInDim S50000 ![] bcast_S_S50000 (constant (F := Ideal) S_ .f32 0x00000000#32))
      (broadcastInDim S850000x1 ![0] bcast_S850000_S850000x1_0 e)
      (broadcastInDim S850000 ![] bcast_S_S850000 (constant (F := Ideal) S_ .f32 0x3F800000#32))))

/-- The sum over incoming edges: the rows of h at the edges' source ends (a negative index wrapped once),
    added into the rows of the edges' destination ends, from zero. -/
def aggregate (s d : (⟨S850000, .i32⟩ : BufTy).Contents (Elt Ideal)) (h : (⟨S50000x128, .f32⟩ : BufTy).Contents (Elt Ideal)) :
    (⟨S50000x128, .f32⟩ : BufTy).Contents (Elt Ideal) :=
  Host.scatterAdd (F := Ideal) scatter_S50000x128_S850000x1_S850000x128_1_0_0_1
    (broadcastInDim S50000x128 ![] bcast_S_S50000x128 (constant (F := Ideal) S_ .f32 0x00000000#32))
    (broadcastInDim S850000x1 ![0] bcast_S850000_S850000x1_0 d)
    (Host.gather gather_S50000x128_S850000x1_S850000x128_1_0_n_n_0_1_1128 h
      (broadcastInDim S850000x1 ![0] bcast_S850000_S850000x1_0
        (select (cmpi .slt s (broadcastInDim S850000 ![] bcast_S_S850000 (constantI S_ 32 0#32)))
          (addi s (broadcastInDim S850000 ![] bcast_S_S850000 (constantI S_ 32 50000#32))) s)))

/-- The three layers: each rescales its input rows by the source factors, sums over incoming edges, and applies
    the dense half with the destination factors. -/
def net (a0 a1 : (⟨S800000, .i32⟩ : BufTy).Contents (Elt Ideal)) (x : (⟨S50000x128, .f32⟩ : BufTy).Contents (Elt Ideal))
    (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal))
    (w3 : (⟨S128x64, .f32⟩ : BufTy).Contents (Elt Ideal)) (b3 : (⟨S64, .f32⟩ : BufTy).Contents (Elt Ideal)) :
    (⟨S50000x64, .f32⟩ : BufTy).Contents (Elt Ideal) :=
  Cert.Gcn.denseRelu (aggregate (withLoops a0) (withLoops a1)
    (Cert.Gcn.scaleRows (Cert.Gcn.denseRelu (aggregate (withLoops a0) (withLoops a1)
      (Cert.Gcn.scaleRows (Cert.Gcn.denseRelu (aggregate (withLoops a0) (withLoops a1)
        (Cert.Gcn.scaleRows x (invSqrtDeg (withLoops a0)))) (invSqrtDeg (withLoops a1)) w1 b1)
        (invSqrtDeg (withLoops a0)))) (invSqrtDeg (withLoops a1)) w2 b2)
      (invSqrtDeg (withLoops a0)))) (invSqrtDeg (withLoops a1)) w3 b3

variable (m : (ℓ : Loc nD τ sig) → Buf (Elt Ideal) ℓ) (ρ : Dev nD → PrngReg) (c : Dev nD)

/-! ## After the first stretch -/

theorem W1_v1 : W1 m ρ c (Proc.devRef .tc main_v1) = withLoops (m ((c : Thread nD τ).loc main_arg0)) := by
  show StableHlo.after hostOps0 (W0 m ρ c) (Proc.devRef .tc main_v1) = _
  after_results; rfl
theorem W1_v2 : W1 m ρ c (Proc.devRef .tc main_v2) = withLoops (m ((c : Thread nD τ).loc main_arg1)) := by
  show StableHlo.after hostOps0 (W0 m ρ c) (Proc.devRef .tc main_v2) = _
  after_results; rfl
theorem W1_v11 : W1 m ρ c (Proc.devRef .tc main_v11) = invSqrtDeg (withLoops (m ((c : Thread nD τ).loc main_arg0))) := by
  show StableHlo.after hostOps0 (W0 m ρ c) (Proc.devRef .tc main_v11) = _
  after_results; rfl
theorem W1_v13 : W1 m ρ c (Proc.devRef .tc main_v13) = invSqrtDeg (withLoops (m ((c : Thread nD τ).loc main_arg1))) := by
  show StableHlo.after hostOps0 (W0 m ρ c) (Proc.devRef .tc main_v13) = _
  after_results; rfl
theorem W1_arg2 : W1 m ρ c (Proc.devRef .tc main_arg2) = (m ((c : Thread nD τ).loc main_arg2)) := by
  show StableHlo.after hostOps0 (W0 m ρ c) (Proc.devRef .tc main_arg2) = _
  after_results
theorem W1_arg3 : W1 m ρ c (Proc.devRef .tc main_arg3) = (m ((c : Thread nD τ).loc main_arg3)) := by
  show StableHlo.after hostOps0 (W0 m ρ c) (Proc.devRef .tc main_arg3) = _
  after_results
theorem W1_arg4 : W1 m ρ c (Proc.devRef .tc main_arg4) = (m ((c : Thread nD τ).loc main_arg4)) := by
  show StableHlo.after hostOps0 (W0 m ρ c) (Proc.devRef .tc main_arg4) = _
  after_results

theorem W1_arg5 : W1 m ρ c (Proc.devRef .tc main_arg5) = (m ((c : Thread nD τ).loc main_arg5)) := by
  show StableHlo.after hostOps0 (W0 m ρ c) (Proc.devRef .tc main_arg5) = _
  after_results
theorem W1_arg6 : W1 m ρ c (Proc.devRef .tc main_arg6) = (m ((c : Thread nD τ).loc main_arg6)) := by
  show StableHlo.after hostOps0 (W0 m ρ c) (Proc.devRef .tc main_arg6) = _
  after_results
theorem W1_arg7 : W1 m ρ c (Proc.devRef .tc main_arg7) = (m ((c : Thread nD τ).loc main_arg7)) := by
  show StableHlo.after hostOps0 (W0 m ρ c) (Proc.devRef .tc main_arg7) = _
  after_results
theorem W1_arg8 : W1 m ρ c (Proc.devRef .tc main_arg8) = (m ((c : Thread nD τ).loc main_arg8)) := by
  show StableHlo.after hostOps0 (W0 m ρ c) (Proc.devRef .tc main_arg8) = _
  after_results

/-! ## Region 0, then the second stretch

A buffer that is no window of a region is the same after it as before; an input window's array is read back
through the window: staged, never written back, so it too is as the region found it. -/

theorem W2_v14 : W2 m ρ c (Proc.devRef .tc main_v14) = Cert.Gcn.scaleRows (m ((c : Thread nD τ).loc main_arg2)) (invSqrtDeg (withLoops (m ((c : Thread nD τ).loc main_arg0)))) := by
  refine (W2_arr m ρ c 2).trans ((Region0.final (V1 m ρ) c).trans ?_)
  show Cert.Gcn.scaleRows (W1 m ρ c (Proc.devRef .tc main_arg2)) (W1 m ρ c (Proc.devRef .tc main_v11)) = _
  rw [W1_arg2, W1_v11]
theorem W2_v1 : W2 m ρ c (Proc.devRef .tc main_v1) = withLoops (m ((c : Thread nD τ).loc main_arg0)) :=
  (W2_of_ne m ρ c main_v1 (by decide)).trans (W1_v1 m ρ c)
theorem W2_v2 : W2 m ρ c (Proc.devRef .tc main_v2) = withLoops (m ((c : Thread nD τ).loc main_arg1)) :=
  (W2_of_ne m ρ c main_v2 (by decide)).trans (W1_v2 m ρ c)
theorem W2_v11 : W2 m ρ c (Proc.devRef .tc main_v11) = invSqrtDeg (withLoops (m ((c : Thread nD τ).loc main_arg0))) :=
  (W2_arr m ρ c 1).trans (((dat0 (V1 m ρ) c).arrAt_in 1 rfl _).trans ((A_eq0 (V1 m ρ) c 1).trans (W1_v11 m ρ c)))
theorem W2_v13 : W2 m ρ c (Proc.devRef .tc main_v13) = invSqrtDeg (withLoops (m ((c : Thread nD τ).loc main_arg1))) :=
  (W2_of_ne m ρ c main_v13 (by decide)).trans (W1_v13 m ρ c)
theorem W2_arg3 : W2 m ρ c (Proc.devRef .tc main_arg3) = (m ((c : Thread nD τ).loc main_arg3)) :=
  (W2_of_ne m ρ c main_arg3 (by decide)).trans (W1_arg3 m ρ c)
theorem W2_arg4 : W2 m ρ c (Proc.devRef .tc main_arg4) = (m ((c : Thread nD τ).loc main_arg4)) :=
  (W2_of_ne m ρ c main_arg4 (by decide)).trans (W1_arg4 m ρ c)

theorem W3_v24 : W3 m ρ c (Proc.devRef .tc main_v24)
    = aggregate (withLoops (m ((c : Thread nD τ).loc main_arg0))) (withLoops (m ((c : Thread nD τ).loc main_arg1))) (Cert.Gcn.scaleRows (m ((c : Thread nD τ).loc main_arg2)) (invSqrtDeg (withLoops (m ((c : Thread nD τ).loc main_arg0))))) := by
  have e : W3 m ρ c (Proc.devRef .tc main_v24) = aggregate (W2 m ρ c (Proc.devRef .tc main_v1))
      (W2 m ρ c (Proc.devRef .tc main_v2)) (W2 m ρ c (Proc.devRef .tc main_v14)) := by
    show StableHlo.after hostOps1 (W2 m ρ c) (Proc.devRef .tc main_v24) = _
    after_results; rfl
  rw [e, W2_v1, W2_v2, W2_v14]
theorem W3_v1 : W3 m ρ c (Proc.devRef .tc main_v1) = withLoops (m ((c : Thread nD τ).loc main_arg0)) := by
  refine Eq.trans ?_ (W2_v1 m ρ c)
  show StableHlo.after hostOps1 (W2 m ρ c) (Proc.devRef .tc main_v1) = _
  after_results
theorem W3_v2 : W3 m ρ c (Proc.devRef .tc main_v2) = withLoops (m ((c : Thread nD τ).loc main_arg1)) := by
  refine Eq.trans ?_ (W2_v2 m ρ c)
  show StableHlo.after hostOps1 (W2 m ρ c) (Proc.devRef .tc main_v2) = _
  after_results
theorem W3_v11 : W3 m ρ c (Proc.devRef .tc main_v11) = invSqrtDeg (withLoops (m ((c : Thread nD τ).loc main_arg0))) := by
  refine Eq.trans ?_ (W2_v11 m ρ c)
  show StableHlo.after hostOps1 (W2 m ρ c) (Proc.devRef .tc main_v11) = _
  after_results
theorem W3_v13 : W3 m ρ c (Proc.devRef .tc main_v13) = invSqrtDeg (withLoops (m ((c : Thread nD τ).loc main_arg1))) := by
  refine Eq.trans ?_ (W2_v13 m ρ c)
  show StableHlo.after hostOps1 (W2 m ρ c) (Proc.devRef .tc main_v13) = _
  after_results
theorem W3_arg3 : W3 m ρ c (Proc.devRef .tc main_arg3) = (m ((c : Thread nD τ).loc main_arg3)) := by
  refine Eq.trans ?_ (W2_arg3 m ρ c)
  show StableHlo.after hostOps1 (W2 m ρ c) (Proc.devRef .tc main_arg3) = _
  after_results
theorem W3_arg4 : W3 m ρ c (Proc.devRef .tc main_arg4) = (m ((c : Thread nD τ).loc main_arg4)) := by
  refine Eq.trans ?_ (W2_arg4 m ρ c)
  show StableHlo.after hostOps1 (W2 m ρ c) (Proc.devRef .tc main_arg4) = _
  after_results

/-- The first layer's output, rescaled for the second layer's gather. -/
def h1s : (⟨S50000x128, .f32⟩ : BufTy).Contents (Elt Ideal) :=
  Cert.Gcn.scaleRows (Cert.Gcn.denseRelu (aggregate (withLoops (m ((c : Thread nD τ).loc main_arg0))) (withLoops (m ((c : Thread nD τ).loc main_arg1)))
    (Cert.Gcn.scaleRows (m ((c : Thread nD τ).loc main_arg2)) (invSqrtDeg (withLoops (m ((c : Thread nD τ).loc main_arg0)))))) (invSqrtDeg (withLoops (m ((c : Thread nD τ).loc main_arg1)))) (m ((c : Thread nD τ).loc main_arg3)) (m ((c : Thread nD τ).loc main_arg4))) (invSqrtDeg (withLoops (m ((c : Thread nD τ).loc main_arg0))))

/-! ## Region 1, then the third stretch -/

theorem W4_v25_1 : W4 m ρ c (Proc.devRef .tc main_v25_1) = h1s m c := by
  refine (W4_arr m ρ c 6).trans ((Region1.final (V3 m ρ) c).trans ?_)
  show Cert.Gcn.scaleRows (Cert.Gcn.denseRelu (W3 m ρ c (Proc.devRef .tc main_v24)) (W3 m ρ c (Proc.devRef .tc main_v13))
    (W3 m ρ c (Proc.devRef .tc main_arg3)) (W3 m ρ c (Proc.devRef .tc main_arg4))) (W3 m ρ c (Proc.devRef .tc main_v11)) = _
  rw [W3_v24, W3_v13, W3_arg3, W3_arg4, W3_v11]; rfl
theorem W4_v1 : W4 m ρ c (Proc.devRef .tc main_v1) = withLoops (m ((c : Thread nD τ).loc main_arg0)) :=
  (W4_of_ne m ρ c main_v1 (by decide)).trans (W3_v1 m ρ c)
theorem W4_v2 : W4 m ρ c (Proc.devRef .tc main_v2) = withLoops (m ((c : Thread nD τ).loc main_arg1)) :=
  (W4_of_ne m ρ c main_v2 (by decide)).trans (W3_v2 m ρ c)
theorem W4_v11 : W4 m ρ c (Proc.devRef .tc main_v11) = invSqrtDeg (withLoops (m ((c : Thread nD τ).loc main_arg0))) :=
  (W4_arr m ρ c 2).trans (((dat1 (V3 m ρ) c).arrAt_in 2 rfl _).trans ((A_eq1 (V3 m ρ) c 2).trans (W3_v11 m ρ c)))
theorem W4_v13 : W4 m ρ c (Proc.devRef .tc main_v13) = invSqrtDeg (withLoops (m ((c : Thread nD τ).loc main_arg1))) :=
  (W4_arr m ρ c 1).trans (((dat1 (V3 m ρ) c).arrAt_in 1 rfl _).trans ((A_eq1 (V3 m ρ) c 1).trans (W3_v13 m ρ c)))

theorem W5_v35 : W5 m ρ c (Proc.devRef .tc main_v35) = aggregate (withLoops (m ((c : Thread nD τ).loc main_arg0))) (withLoops (m ((c : Thread nD τ).loc main_arg1))) (h1s m c) := by
  have e : W5 m ρ c (Proc.devRef .tc main_v35) = aggregate (W4 m ρ c (Proc.devRef .tc main_v1))
      (W4 m ρ c (Proc.devRef .tc main_v2)) (W4 m ρ c (Proc.devRef .tc main_v25_1)) := by
    show StableHlo.after hostOps2 (W4 m ρ c) (Proc.devRef .tc main_v35) = _
    after_results; rfl
  rw [e, W4_v1, W4_v2, W4_v25_1]
theorem W5_v1 : W5 m ρ c (Proc.devRef .tc main_v1) = withLoops (m ((c : Thread nD τ).loc main_arg0)) := by
  refine Eq.trans ?_ (W4_v1 m ρ c)
  show StableHlo.after hostOps2 (W4 m ρ c) (Proc.devRef .tc main_v1) = _
  after_results
theorem W5_v2 : W5 m ρ c (Proc.devRef .tc main_v2) = withLoops (m ((c : Thread nD τ).loc main_arg1)) := by
  refine Eq.trans ?_ (W4_v2 m ρ c)
  show StableHlo.after hostOps2 (W4 m ρ c) (Proc.devRef .tc main_v2) = _
  after_results
theorem W5_v11 : W5 m ρ c (Proc.devRef .tc main_v11) = invSqrtDeg (withLoops (m ((c : Thread nD τ).loc main_arg0))) := by
  refine Eq.trans ?_ (W4_v11 m ρ c)
  show StableHlo.after hostOps2 (W4 m ρ c) (Proc.devRef .tc main_v11) = _
  after_results
theorem W5_v13 : W5 m ρ c (Proc.devRef .tc main_v13) = invSqrtDeg (withLoops (m ((c : Thread nD τ).loc main_arg1))) := by
  refine Eq.trans ?_ (W4_v13 m ρ c)
  show StableHlo.after hostOps2 (W4 m ρ c) (Proc.devRef .tc main_v13) = _
  after_results

/-! The weights and biases of the later layers, carried down from the first boundary. -/

theorem W2_arg5 : W2 m ρ c (Proc.devRef .tc main_arg5) = (m ((c : Thread nD τ).loc main_arg5)) :=
  (W2_of_ne m ρ c main_arg5 (by decide)).trans (W1_arg5 m ρ c)
theorem W3_arg5 : W3 m ρ c (Proc.devRef .tc main_arg5) = (m ((c : Thread nD τ).loc main_arg5)) := by
  refine Eq.trans ?_ (W2_arg5 m ρ c)
  show StableHlo.after hostOps1 (W2 m ρ c) (Proc.devRef .tc main_arg5) = _
  after_results
theorem W4_arg5 : W4 m ρ c (Proc.devRef .tc main_arg5) = (m ((c : Thread nD τ).loc main_arg5)) :=
  (W4_of_ne m ρ c main_arg5 (by decide)).trans (W3_arg5 m ρ c)
theorem W5_arg5 : W5 m ρ c (Proc.devRef .tc main_arg5) = (m ((c : Thread nD τ).loc main_arg5)) := by
  refine Eq.trans ?_ (W4_arg5 m ρ c)
  show StableHlo.after hostOps2 (W4 m ρ c) (Proc.devRef .tc main_arg5) = _
  after_results
theorem W2_arg6 : W2 m ρ c (Proc.devRef .tc main_arg6) = (m ((c : Thread nD τ).loc main_arg6)) :=
  (W2_of_ne m ρ c main_arg6 (by decide)).trans (W1_arg6 m ρ c)
theorem W3_arg6 : W3 m ρ c (Proc.devRef .tc main_arg6) = (m ((c : Thread nD τ).loc main_arg6)) := by
  refine Eq.trans ?_ (W2_arg6 m ρ c)
  show StableHlo.after hostOps1 (W2 m ρ c) (Proc.devRef .tc main_arg6) = _
  after_results
theorem W4_arg6 : W4 m ρ c (Proc.devRef .tc main_arg6) = (m ((c : Thread nD τ).loc main_arg6)) :=
  (W4_of_ne m ρ c main_arg6 (by decide)).trans (W3_arg6 m ρ c)
theorem W5_arg6 : W5 m ρ c (Proc.devRef .tc main_arg6) = (m ((c : Thread nD τ).loc main_arg6)) := by
  refine Eq.trans ?_ (W4_arg6 m ρ c)
  show StableHlo.after hostOps2 (W4 m ρ c) (Proc.devRef .tc main_arg6) = _
  after_results
theorem W2_arg7 : W2 m ρ c (Proc.devRef .tc main_arg7) = (m ((c : Thread nD τ).loc main_arg7)) :=
  (W2_of_ne m ρ c main_arg7 (by decide)).trans (W1_arg7 m ρ c)
theorem W3_arg7 : W3 m ρ c (Proc.devRef .tc main_arg7) = (m ((c : Thread nD τ).loc main_arg7)) := by
  refine Eq.trans ?_ (W2_arg7 m ρ c)
  show StableHlo.after hostOps1 (W2 m ρ c) (Proc.devRef .tc main_arg7) = _
  after_results
theorem W4_arg7 : W4 m ρ c (Proc.devRef .tc main_arg7) = (m ((c : Thread nD τ).loc main_arg7)) :=
  (W4_of_ne m ρ c main_arg7 (by decide)).trans (W3_arg7 m ρ c)
theorem W5_arg7 : W5 m ρ c (Proc.devRef .tc main_arg7) = (m ((c : Thread nD τ).loc main_arg7)) := by
  refine Eq.trans ?_ (W4_arg7 m ρ c)
  show StableHlo.after hostOps2 (W4 m ρ c) (Proc.devRef .tc main_arg7) = _
  after_results
theorem W2_arg8 : W2 m ρ c (Proc.devRef .tc main_arg8) = (m ((c : Thread nD τ).loc main_arg8)) :=
  (W2_of_ne m ρ c main_arg8 (by decide)).trans (W1_arg8 m ρ c)
theorem W3_arg8 : W3 m ρ c (Proc.devRef .tc main_arg8) = (m ((c : Thread nD τ).loc main_arg8)) := by
  refine Eq.trans ?_ (W2_arg8 m ρ c)
  show StableHlo.after hostOps1 (W2 m ρ c) (Proc.devRef .tc main_arg8) = _
  after_results
theorem W4_arg8 : W4 m ρ c (Proc.devRef .tc main_arg8) = (m ((c : Thread nD τ).loc main_arg8)) :=
  (W4_of_ne m ρ c main_arg8 (by decide)).trans (W3_arg8 m ρ c)
theorem W5_arg8 : W5 m ρ c (Proc.devRef .tc main_arg8) = (m ((c : Thread nD τ).loc main_arg8)) := by
  refine Eq.trans ?_ (W4_arg8 m ρ c)
  show StableHlo.after hostOps2 (W4 m ρ c) (Proc.devRef .tc main_arg8) = _
  after_results
theorem W6_arg7 : W6 m ρ c (Proc.devRef .tc main_arg7) = (m ((c : Thread nD τ).loc main_arg7)) :=
  (W6_of_ne m ρ c main_arg7 (by decide)).trans (W5_arg7 m ρ c)
theorem W7_arg7 : W7 m ρ c (Proc.devRef .tc main_arg7) = (m ((c : Thread nD τ).loc main_arg7)) := by
  refine Eq.trans ?_ (W6_arg7 m ρ c)
  show StableHlo.after hostOps3 (W6 m ρ c) (Proc.devRef .tc main_arg7) = _
  after_results
theorem W6_arg8 : W6 m ρ c (Proc.devRef .tc main_arg8) = (m ((c : Thread nD τ).loc main_arg8)) :=
  (W6_of_ne m ρ c main_arg8 (by decide)).trans (W5_arg8 m ρ c)
theorem W7_arg8 : W7 m ρ c (Proc.devRef .tc main_arg8) = (m ((c : Thread nD τ).loc main_arg8)) := by
  refine Eq.trans ?_ (W6_arg8 m ρ c)
  show StableHlo.after hostOps3 (W6 m ρ c) (Proc.devRef .tc main_arg8) = _
  after_results

/-- The second layer's output, rescaled for the third layer's gather. -/
def h2s : (⟨S50000x128, .f32⟩ : BufTy).Contents (Elt Ideal) :=
  Cert.Gcn.scaleRows (Cert.Gcn.denseRelu (aggregate (withLoops (m ((c : Thread nD τ).loc main_arg0))) (withLoops (m ((c : Thread nD τ).loc main_arg1))) (h1s m c))
    (invSqrtDeg (withLoops (m ((c : Thread nD τ).loc main_arg1)))) (m ((c : Thread nD τ).loc main_arg5)) (m ((c : Thread nD τ).loc main_arg6))) (invSqrtDeg (withLoops (m ((c : Thread nD τ).loc main_arg0))))

/-! ## Region 2, then the last stretch -/

theorem W6_v36_1 : W6 m ρ c (Proc.devRef .tc main_v36_1) = h2s m c := by
  refine (W6_arr m ρ c 6).trans ((Region2.final (V5 m ρ) c).trans ?_)
  show Cert.Gcn.scaleRows (Cert.Gcn.denseRelu (W5 m ρ c (Proc.devRef .tc main_v35)) (W5 m ρ c (Proc.devRef .tc main_v13))
    (W5 m ρ c (Proc.devRef .tc main_arg5)) (W5 m ρ c (Proc.devRef .tc main_arg6))) (W5 m ρ c (Proc.devRef .tc main_v11)) = _
  rw [W5_v35, W5_v13, W5_arg5, W5_arg6, W5_v11]; rfl
theorem W6_v1 : W6 m ρ c (Proc.devRef .tc main_v1) = withLoops (m ((c : Thread nD τ).loc main_arg0)) :=
  (W6_of_ne m ρ c main_v1 (by decide)).trans (W5_v1 m ρ c)
theorem W6_v2 : W6 m ρ c (Proc.devRef .tc main_v2) = withLoops (m ((c : Thread nD τ).loc main_arg1)) :=
  (W6_of_ne m ρ c main_v2 (by decide)).trans (W5_v2 m ρ c)
theorem W6_v13 : W6 m ρ c (Proc.devRef .tc main_v13) = invSqrtDeg (withLoops (m ((c : Thread nD τ).loc main_arg1))) :=
  (W6_arr m ρ c 1).trans (((dat2 (V5 m ρ) c).arrAt_in 1 rfl _).trans ((A_eq2 (V5 m ρ) c 1).trans (W5_v13 m ρ c)))

theorem W7_v46 : W7 m ρ c (Proc.devRef .tc main_v46) = aggregate (withLoops (m ((c : Thread nD τ).loc main_arg0))) (withLoops (m ((c : Thread nD τ).loc main_arg1))) (h2s m c) := by
  have e : W7 m ρ c (Proc.devRef .tc main_v46) = aggregate (W6 m ρ c (Proc.devRef .tc main_v1))
      (W6 m ρ c (Proc.devRef .tc main_v2)) (W6 m ρ c (Proc.devRef .tc main_v36_1)) := by
    show StableHlo.after hostOps3 (W6 m ρ c) (Proc.devRef .tc main_v46) = _
    after_results; rfl
  rw [e, W6_v1, W6_v2, W6_v36_1]
theorem W7_v13 : W7 m ρ c (Proc.devRef .tc main_v13) = invSqrtDeg (withLoops (m ((c : Thread nD τ).loc main_arg1))) := by
  refine Eq.trans ?_ (W6_v13 m ρ c)
  show StableHlo.after hostOps3 (W6 m ρ c) (Proc.devRef .tc main_v13) = _
  after_results

/-! ## Region 3: the result -/

/-- The result buffer at the last boundary is the three layers composed, of the argument arrays as launched. -/
theorem result : W8 m ρ c (Proc.devRef .tc main_v47) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 4).trans ((Region3.final (V7 m ρ) c).trans ?_)
  show Cert.Gcn.denseRelu (W7 m ρ c (Proc.devRef .tc main_v46)) (W7 m ρ c (Proc.devRef .tc main_v13))
    (W7 m ρ c (Proc.devRef .tc main_arg7)) (W7 m ρ c (Proc.devRef .tc main_arg8)) = _
  rw [W7_v46, W7_v13, W7_arg7, W7_arg8]; rfl

end Cert.KernelIdeal.Walk

end
-- ==== Proof.RefNet.lean ====
/-
  The idealized reference's result as one function of its arguments.

  The reference is a straight line of host operations; its generated run states the result as their composed
  term.  In that term each layer's source rescale is a product with the factor column broadcast over the lanes,
  and each dense half is a dot_general of the destination-rescaled aggregate with the weights, plus the bias
  broadcast to a row and down the rows, under a maximum with the broadcast scalar zero: the host's spellings of
  the two layer functions.  The gather, the scatter-adds, the self loops and the degree normalisations are
  carried as they stand.  So the term is the three layers composed.
-/
import proofs.«162499_j60988535603566_1_alg».proof.Proof.Gen.ReferenceIdeal.Run
import proofs.«162499_j60988535603566_1_alg».proof.Proof.LibGraphLayer

set_option maxRecDepth 16384

noncomputable section

namespace Cert.ReferenceIdeal.Net

open Cert.ReferenceIdeal Cert.ReferenceIdeal.Gen Cert.ReferenceIdeal.Value
open Idealize.ShloMosaic Idealize.ShloMosaic.TcCoe Idealize.SL.Sem Idealize.ShloMosaic.StableHlo

/-- The listed edge ends with one self loop per node appended. -/
def withLoops (e : (⟨S800000, .i32⟩ : BufTy).Contents (Elt Ideal)) : (⟨S850000, .i32⟩ : BufTy).Contents (Elt Ideal) :=
  concatenate S850000 0 [⟨S800000, e⟩, ⟨S50000, iotaInDim S50000 32 0⟩] concatenates_S800000_S50000_S850000_d0

/-- The degree normalisation as a column: one is added at every listed node, and the reciprocal square root of
    each count is taken. -/
def invSqrtDeg (e : (⟨S850000, .i32⟩ : BufTy).Contents (Elt Ideal)) : (⟨S50000x1, .f32⟩ : BufTy).Contents (Elt Ideal) :=
  broadcastInDim S50000x1 ![0] bcast_S50000_S50000x1_0
    (Host.rsqrt (F := Ideal) (Host.scatterAdd (F := Ideal) scatter_S50000_S850000x1_S850000_n_0_0_1
      (broadcastInDim S50000 ![] bcast_S_S50000 (constant (F := Ideal) S_ .f32 0x00000000#32))
      (broadcastInDim S850000x1 ![0] bcast_S850000_S850000x1_0 e)
      (broadcastInDim S850000 ![] bcast_S_S850000 (constant (F := Ideal) S_ .f32 0x3F800000#32))))

/-- The sum over incoming edges: the rows of h at the edges' source ends (a negative index wrapped once),
    added into the rows of the edges' destination ends, from zero. -/
def aggregate (s d : (⟨S850000, .i32⟩ : BufTy).Contents (Elt Ideal)) (h : (⟨S50000x128, .f32⟩ : BufTy).Contents (Elt Ideal)) :
    (⟨S50000x128, .f32⟩ : BufTy).Contents (Elt Ideal) :=
  Host.scatterAdd (F := Ideal) scatter_S50000x128_S850000x1_S850000x128_1_0_0_1
    (broadcastInDim S50000x128 ![] bcast_S_S50000x128 (constant (F := Ideal) S_ .f32 0x00000000#32))
    (broadcastInDim S850000x1 ![0] bcast_S850000_S850000x1_0 d)
    (Host.gather gather_S50000x128_S850000x1_S850000x128_1_0_n_n_0_1_1128 h
      (broadcastInDim S850000x1 ![0] bcast_S850000_S850000x1_0
        (select (cmpi .slt s (broadcastInDim S850000 ![] bcast_S_S850000 (constantI S_ 32 0#32)))
          (addi s (broadcastInDim S850000 ![] bcast_S_S850000 (constantI S_ 32 50000#32))) s)))

/-- The three layers: each rescales its input rows by the source factors, sums over incoming edges, and applies
    the dense half with the destination factors. -/
def net (a0 a1 : (⟨S800000, .i32⟩ : BufTy).Contents (Elt Ideal)) (x : (⟨S50000x128, .f32⟩ : BufTy).Contents (Elt Ideal))
    (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal))
    (w3 : (⟨S128x64, .f32⟩ : BufTy).Contents (Elt Ideal)) (b3 : (⟨S64, .f32⟩ : BufTy).Contents (Elt Ideal)) :
    (⟨S50000x64, .f32⟩ : BufTy).Contents (Elt Ideal) :=
  Cert.Gcn.denseRelu (aggregate (withLoops a0) (withLoops a1)
    (Cert.Gcn.scaleRows (Cert.Gcn.denseRelu (aggregate (withLoops a0) (withLoops a1)
      (Cert.Gcn.scaleRows (Cert.Gcn.denseRelu (aggregate (withLoops a0) (withLoops a1)
        (Cert.Gcn.scaleRows x (invSqrtDeg (withLoops a0)))) (invSqrtDeg (withLoops a1)) w1 b1)
        (invSqrtDeg (withLoops a0)))) (invSqrtDeg (withLoops a1)) w2 b2)
      (invSqrtDeg (withLoops a0)))) (invSqrtDeg (withLoops a1)) w3 b3

theorem dot128 : dot_S50000x128_S128x128_S50000x128_1_0_0_1_n_n = DotDims.plain 50000 128 128 := rfl
theorem dot64 : dot_S50000x128_S128x64_S50000x64_1_0_0_1_n_n = DotDims.plain 50000 128 64 := rfl

set_option maxRecDepth 200000 in
/-- The run's result term is the three layers composed, of the argument arrays as launched. -/
theorem res_eq (m : (ℓ : Loc nD τ sig) → Buf (Elt Ideal) ℓ) (c : Dev nD) :
    res_main_v70 (F := Ideal) m c
      = net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold res_main_v70
  rw [dot128, dot64]
  simp only [Cert.Gcn.scale_host]
  simp only [Cert.Gcn.dense_of_scaled _ _ _ _ bcast_S50000x1_S50000x128_0_1]
  rfl

end Cert.ReferenceIdeal.Net

end
-- ==== Proof.lean ====
/-
  Three graph-convolution layers on 50000 nodes: a Pallas TPU program against its jnp reference, equal at the
  ideal values (floats extended reals, every operation exact).

  Both programs append one self loop per node to the 800000 listed edges, count the edges leaving and entering
  each node, and take the reciprocal square roots of the counts as the source factors dout and the destination
  factors din.  A layer then maps node features h to

      relu ( ( Σ_{edges into r} (h · dout)[source] ) · din[r]  ·  W  +  b )

  — the rows rescaled by dout, gathered at the edges' sources and summed at their destinations, the sums rescaled
  by din, multiplied by the weights, the bias added, clamped at zero.  The reference does every step on the host.
  The kernel leaves the gather and the scatter-adds on the host as well, and moves the elementwise rescales, the
  matrix product, the bias and the clamp into four kernel regions over ten blocks of 5000 nodes: region 0 rescales
  the input features; regions 1 and 2 apply a layer's dense half to a block and also emit the block rescaled by
  dout for the next layer's gather; region 3 applies the last dense half.

  The two sides apply the same operations to the same operands in the same order: a product into the zero
  accumulator on the matrix unit and the host's dot_general are the same sum over the contraction index, a cast
  and a broadcast over the lanes and the host's broadcast onto named axes read the same entry, and the blocks of a
  region are restrictions of one function of the whole arrays that tile its output.  No law of arithmetic beyond
  that is used, so the precondition (finite float inputs) is never opened, and the integer edge lists may hold
  anything: the host's gather and scatter-add treat an index the same way in both programs.

  The kernel's result as a function of its arguments: Proof/Walk.lean over Proof/Region0 … Region3.lean and
  Proof/KernelRun.lean.  The reference's: Proof/RefNet.lean over its generated run.  The layer's two functions and
  their two spellings: Proof/LibGraphLayer.lean.  The ideal pass rewrote nothing, so the idealization claim is trivial.
-/
import proofs.«162499_j60988535603566_1_alg».proof.Defs
import proofs.«162499_j60988535603566_1_alg».proof.Proof.Gen.Kernel
import proofs.«162499_j60988535603566_1_alg».proof.Proof.Gen.Kernel.Skeleton
import proofs.«162499_j60988535603566_1_alg».proof.Proof.Gen.Kernel.Points
import proofs.«162499_j60988535603566_1_alg».proof.Proof.FrameKernel
import proofs.«162499_j60988535603566_1_alg».proof.Proof.Gen.KernelIdeal
import proofs.«162499_j60988535603566_1_alg».proof.Proof.Gen.KernelIdeal.Skeleton
import proofs.«162499_j60988535603566_1_alg».proof.Proof.Gen.KernelIdeal.Points
import proofs.«162499_j60988535603566_1_alg».proof.Proof.FrameKernelIdeal
import proofs.«162499_j60988535603566_1_alg».proof.Proof.Gen.ReferenceIdeal
import proofs.«162499_j60988535603566_1_alg».proof.Proof.Gen.Pre_finite_inputs
import proofs.«162499_j60988535603566_1_alg».proof.Proof.Gen.ReferenceIdeal.Run
import proofs.«162499_j60988535603566_1_alg».proof.Proof.KernelRun
import proofs.«162499_j60988535603566_1_alg».proof.Proof.Walk
import proofs.«162499_j60988535603566_1_alg».proof.Proof.RefNet
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ
theorem frame_ki : Cert.frame_KernelIdeal := fun m ρ _ => Cert.KernelIdeal.GenP.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The three layers composed, spelt over the reference's dimension records and over the kernel's, are one
    function: the records hold the same numbers. -/
theorem net_eq (a0 a1 : (⟨Cert.KernelIdeal.S800000, .i32⟩ : BufTy).Contents (Elt Ideal))
    (x : (⟨Cert.KernelIdeal.S50000x128, .f32⟩ : BufTy).Contents (Elt Ideal))
    (w1 : (⟨Cert.KernelIdeal.S128x128, .f32⟩ : BufTy).Contents (Elt Ideal)) (b1 : (⟨Cert.KernelIdeal.S128, .f32⟩ : BufTy).Contents (Elt Ideal))
    (w2 : (⟨Cert.KernelIdeal.S128x128, .f32⟩ : BufTy).Contents (Elt Ideal)) (b2 : (⟨Cert.KernelIdeal.S128, .f32⟩ : BufTy).Contents (Elt Ideal))
    (w3 : (⟨Cert.KernelIdeal.S128x64, .f32⟩ : BufTy).Contents (Elt Ideal)) (b3 : (⟨Cert.KernelIdeal.S64, .f32⟩ : BufTy).Contents (Elt Ideal)) :
    Cert.ReferenceIdeal.Net.net a0 a1 x w1 b1 w2 b2 w3 b3 = Cert.KernelIdeal.Walk.net a0 a1 x w1 b1 w2 b2 w3 b3 := rfl

/-- From memories agreeing on the arguments both programs end with the three layers composed in their result. -/
theorem algebraic : Cert.algebraic_KernelIdeal_ReferenceIdeal := by
  intro m ρ m' ρ' _ hagree
  refine ⟨fun c => Cert.KernelIdeal.Walk.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Walk.result m ρ c), (h c).2⟩) (Cert.KernelIdeal.Named.run m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Net.res_eq, e0, e1, e2, e3, e4, e5, e6, e7, e8]
    exact net_eq _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
